-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S16x40 .f32) (main_arg7 : FVec F S16x40 .f32) (main_arg8 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg6
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S16x40 .f32 := Host.absf main_arg7
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x16 .f32) (main_arg4 : FVec F S128x16 .f32) (main_arg5 : FVec F S16 .f32) (main_arg6 : FVec F S16x40 .f32) (main_arg7 : FVec F S16x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x16 : Shape := ⟨2, ![1, 16]⟩
abbrev S100000x16 : Shape := ⟨2, ![100000, 16]⟩
abbrev S4000x128 : Shape := ⟨2, ![4000, 128]⟩
abbrev S4000x1 : Shape := ⟨2, ![4000, 1]⟩
abbrev S4000x16 : Shape := ⟨2, ![4000, 16]⟩
abbrev S1600000x16 : Shape := ⟨2, ![1600000, 16]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S16x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x16, .f32⟩
  | .hbm, ⟨36, _⟩ => ⟨S100000x16, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x16, .f32⟩
  | .hbm, ⟨46, _⟩ => ⟨S_, .f32⟩
  | .hbm, ⟨47, _⟩ => ⟨S100000x16, .f32⟩
  | .hbm, ⟨48, _⟩ => ⟨S1600000x1, .i32⟩
  | .hbm, ⟨49, _⟩ => ⟨S100000x16, .f32⟩
  | .hbm, ⟨50, _⟩ => ⟨S1x40, .f32⟩
  | .hbm, ⟨51, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x16, .f32⟩
  | .local _ .vmem, ⟨7, _⟩ => ⟨S128x16, .f32⟩
  | .local _ .vmem, ⟨8, _⟩ => ⟨S1x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S4000x1, .f32⟩
  | .local _ .vmem, ⟨16, _⟩ => ⟨S4000x1, .f32⟩
  | .local _ .vmem, ⟨17, _⟩ => ⟨S16x40, .f32⟩
  | .local _ .vmem, ⟨18, _⟩ => ⟨S16x40, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S16_S1x16 : S16.ShapeCasts S1x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S40_S1x40 : S40.ShapeCasts S1x40
  shapeCasts_S4000x16_S4000x16 : S4000x16.ShapeCasts S4000x16
  broadcasts_S4000x1_S4000x16 : S4000x1.Broadcasts S4000x16
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x16_S4000x16_1_0_0_1_n_n_wf : DotDims.WF S4000x128 S128x16 S4000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S4000x16_S16x40_S4000x40_1_0_0_1_n_n_wf : DotDims.WF S4000x16 S16x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x16.size a ≤ S100000x16.size a
  hwx0_6 : ∀ i : grid0.Coords, EltTy.bits .f32 = 32 ∨ (Rect.block (s := S100000x16) S4000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S100000x40 : Shape := ⟨2, ![100000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x16, .f32⟩
  | .hbm, ⟨4, _⟩ => ⟨S128x16, .f32⟩
  | .hbm, ⟨5, _⟩ => ⟨S16, .f32⟩
  | .hbm, ⟨6, _⟩ => ⟨S16x40, .f32⟩
  | .hbm, ⟨7, _⟩ => ⟨S16x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x16, .f32⟩
  | .hbm, ⟨52, _⟩ => ⟨S_, .f32⟩
  | .hbm, ⟨53, _⟩ => ⟨S100000x16, .f32⟩
  | .hbm, ⟨54, _⟩ => ⟨S1600000x1, .i32⟩
  | .hbm, ⟨55, _⟩ => ⟨S100000x16, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x16, .f32⟩
  | .hbm, ⟨67, _⟩ => ⟨S100000x16, .f32⟩
  | .hbm, ⟨68, _⟩ => ⟨S100000x40, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x40_S100000x40_1_0_0_1_n_n_wf : DotDims.WF S100000x16 S16x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.LibMeanScale.lean ====
/-
  Scaling by the reciprocal of a clamped count, over the extended reals.

  A mean over neighbours is written either as a quotient, `a / max d 1`, or as a product with a reciprocal
  computed once, `a * (1 / max d 1)`. Over the extended reals the quotient by a nonzero `y` IS the product
  with `y⁻¹` (the inverse of an infinity being zero), and `1 / y` is `y⁻¹`; so the two spellings agree for
  EVERY `a` and every `d`, finite or not: the clamp `max d 1` is at least one, hence never zero, and nothing
  else is asked. In particular no finiteness of `a` or of the count `d` is used.
-/
import Idealize.ShloMosaic.PureOps.Ideal.Laws

noncomputable section

open Idealize.ShloMosaic

namespace MeanScale

/-- The single-precision pattern `0x3F800000` is the number one. -/
theorem one_bits : Ideal.ofBits .f32 0x3F800000#32 = 1 := by
  simp [Ideal.ofBits, Ideal.ieee]
  first
    | (rw [← EReal.coe_mul]; norm_num)
    | (norm_cast; norm_num)
    | exact_mod_cast (by norm_num : (8388608 : ℝ) * ((2 : ℝ) ^ 23)⁻¹ = 1)

/-- A count clamped below by one is not zero. -/
theorem clamp_ne_zero (d : EReal) : max d 1 ≠ 0 :=
  (lt_of_lt_of_le zero_lt_one (le_max_right d 1)).ne'

/-- Off zero, multiplying by `1 / y` is dividing by `y`: both are the product with `y⁻¹`. -/
theorem mul_one_div (a y : EReal) (hy : y ≠ 0) : a * Ideal.div 1 y = Ideal.div a y := by
  rw [Ideal.div, Ideal.div, if_neg hy, if_neg hy, one_mul]

/-- The mean's two spellings agree: `a * (1 / max d 1) = a / max d 1`, for all extended reals `a`, `d`. -/
theorem mul_inv_count (a d : EReal) : a * Ideal.div 1 (max d 1) = Ideal.div a (max d 1) :=
  mul_one_div a _ (clamp_ne_zero d)

end MeanScale

end
-- ==== Proof.LibSageCombine.lean ====
/-
  One mean-aggregating graph-convolution layer, entry by entry, over the extended reals.

  For node features `x : [N, K]`, neighbour sums `agg : [N, K]`, two weight matrices `ws wn : [K, H]` and a bias,
  the layer's entry `(p, q)` is

      act ( ∑ k, x (p, k) · ws (k, q)  +  ∑ k, mean (p, k) · wn (k, q)  +  bias q )

  where `mean (p, k)` is the neighbour sum of row `p` over that row's clamped neighbour count, and `act` is either the
  identity or the clamp at zero. Two spellings of the mean occur: a PRODUCT with a per-row factor stored as a column
  `inv : [N, 1]` (`scaled`), and a QUOTIENT by the clamped count `max (d p) 1` (`divided`). When the stored factor is
  `1 / max (d p) 1` the two layers are the same function (`scaled_eq_divided`): row by row and term by term this is
  `a * (1 / y) = a / y` for `y ≥ 1`, which holds for every extended real `a` — no entry is asked to be finite, the sums are
  never rearranged, and the bias is only read through its two layouts (`[1, H]` and `[H]`).
-/
import Idealize.ShloMosaic.PureOps.Ideal.Laws
import Idealize.ShloMosaic.Lib.ValueIdx
import proofs.«103128_j69097433858679_2_alg».proof.Proof.LibMeanScale

noncomputable section

open scoped BigOperators
open Idealize.ShloMosaic Idealize.ShloMosaic.ValueIdx

namespace SageCombine

variable {N K H : ℕ}

/-- The activation: the clamp at zero, or nothing. -/
def act : Bool → EReal → EReal
  | true, v => max v 0
  | false, v => v

/-- The layer's entry `(p, q)` with the mean spelt as a product: row `p` of the neighbour sums times the stored factor
    `inv (p, 0)`. -/
def scaledAt (relu : Bool) (x agg : (⟨2, ![N, K]⟩ : Shape).Idx → EReal) (inv : (⟨2, ![N, 1]⟩ : Shape).Idx → EReal)
    (ws wn : (⟨2, ![K, H]⟩ : Shape).Idx → EReal) (b : (⟨2, ![1, H]⟩ : Shape).Idx → EReal) (p : Fin N) (q : Fin H) : EReal :=
  act relu ((∑ k : Fin K, x (ix2 p k) * ws (ix2 k q))
    + (∑ k : Fin K, (agg (ix2 p k) * inv (ix2 p (0 : Fin 1))) * wn (ix2 k q))
    + b (ix2 (0 : Fin 1) q))

/-- The layer as an array `[N, H]`, the mean spelt as a product. -/
def scaled (relu : Bool) (x agg : (⟨2, ![N, K]⟩ : Shape).Idx → EReal) (inv : (⟨2, ![N, 1]⟩ : Shape).Idx → EReal)
    (ws wn : (⟨2, ![K, H]⟩ : Shape).Idx → EReal) (b : (⟨2, ![1, H]⟩ : Shape).Idx → EReal) :
    (⟨2, ![N, H]⟩ : Shape).Idx → EReal := fun j => scaledAt relu x agg inv ws wn b (j 0) (j 1)

/-- The layer's entry `(p, q)` with the mean spelt as a quotient by the clamped count `max (d p) 1`. -/
def dividedAt (relu : Bool) (x agg : (⟨2, ![N, K]⟩ : Shape).Idx → EReal) (d : (⟨1, ![N]⟩ : Shape).Idx → EReal)
    (ws wn : (⟨2, ![K, H]⟩ : Shape).Idx → EReal) (b : (⟨1, ![H]⟩ : Shape).Idx → EReal) (p : Fin N) (q : Fin H) : EReal :=
  act relu ((∑ k : Fin K, x (ix2 p k) * ws (ix2 k q))
    + (∑ k : Fin K, Ideal.div (agg (ix2 p k)) (max (d (ix1 p)) 1) * wn (ix2 k q))
    + b (ix1 q))

/-- The layer as an array `[N, H]`, the mean spelt as a quotient. -/
def divided (relu : Bool) (x agg : (⟨2, ![N, K]⟩ : Shape).Idx → EReal) (d : (⟨1, ![N]⟩ : Shape).Idx → EReal)
    (ws wn : (⟨2, ![K, H]⟩ : Shape).Idx → EReal) (b : (⟨1, ![H]⟩ : Shape).Idx → EReal) :
    (⟨2, ![N, H]⟩ : Shape).Idx → EReal := fun j => dividedAt relu x agg d ws wn b (j 0) (j 1)

theorem scaled_apply (relu : Bool) (x agg : (⟨2, ![N, K]⟩ : Shape).Idx → EReal) (inv : (⟨2, ![N, 1]⟩ : Shape).Idx → EReal)
    (ws wn : (⟨2, ![K, H]⟩ : Shape).Idx → EReal) (b : (⟨2, ![1, H]⟩ : Shape).Idx → EReal) (p : Fin N) (q : Fin H) :
    scaled relu x agg inv ws wn b (ix2 p q) = scaledAt relu x agg inv ws wn b p q := rfl

theorem divided_apply (relu : Bool) (x agg : (⟨2, ![N, K]⟩ : Shape).Idx → EReal) (d : (⟨1, ![N]⟩ : Shape).Idx → EReal)
    (ws wn : (⟨2, ![K, H]⟩ : Shape).Idx → EReal) (b : (⟨1, ![H]⟩ : Shape).Idx → EReal) (p : Fin N) (q : Fin H) :
    divided relu x agg d ws wn b (ix2 p q) = dividedAt relu x agg d ws wn b p q := rfl

/-- With the stored factor the reciprocal of the clamped count, and the bias row the bias vector, the two spellings are one
    function. -/
theorem scaled_eq_divided (relu : Bool) (x agg : (⟨2, ![N, K]⟩ : Shape).Idx → EReal)
    (inv : (⟨2, ![N, 1]⟩ : Shape).Idx → EReal) (d : (⟨1, ![N]⟩ : Shape).Idx → EReal)
    (ws wn : (⟨2, ![K, H]⟩ : Shape).Idx → EReal) (b : (⟨2, ![1, H]⟩ : Shape).Idx → EReal)
    (b1 : (⟨1, ![H]⟩ : Shape).Idx → EReal)
    (hinv : ∀ p : Fin N, inv (ix2 p (0 : Fin 1)) = Ideal.div 1 (max (d (ix1 p)) 1))
    (hb : ∀ q : Fin H, b (ix2 (0 : Fin 1) q) = b1 (ix1 q)) :
    scaled relu x agg inv ws wn b = divided relu x agg d ws wn b1 := by
  funext j
  obtain ⟨p, q, rfl⟩ : ∃ (p : Fin N) (q : Fin H), j = ix2 p q := ⟨j 0, j 1, eq_ix2 j⟩
  rw [scaled_apply, divided_apply]
  unfold scaledAt dividedAt
  rw [hb, hinv]
  congr 3
  refine Finset.sum_congr rfl fun k _ => ?_
  rw [MeanScale.mul_inv_count]

end SageCombine

end
-- ==== Proof.Body0.lean ====
/-
  The first combine call's body at an entry of its block.

  The body reads a tile of 4000 rows of the node features `x` and of the neighbour sums `agg`, the matching 4000
  entries of the column of per-row factors `inv`, both 128 × 16 weight matrices whole and the bias row. It scales
  row `p` of `agg` by `inv (p, 0)`, multiplies the features by the self weights and the scaled sums by the neighbour
  weights (two matrix products into zero, their operands narrowed to bf16, which over the extended reals changes
  nothing), adds the two products, adds the bias row to every row, and clamps at zero. At the entry `(p, q)` of the
  tile that is the layer `SageCombine.scaled true` at row `r p`, column `q`, of any whole arrays of which the tile's
  operands are the rows `r p`.
-/
import proofs.«103128_j69097433858679_2_alg».proof.Proof.Gen.KernelIdeal.Skeleton
import proofs.«103128_j69097433858679_2_alg».proof.Proof.LibMatmul
import proofs.«103128_j69097433858679_2_alg».proof.Proof.LibColumnLayout
import proofs.«103128_j69097433858679_2_alg».proof.Proof.LibSageCombine
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The first call's matrix products are plain: rows times columns, one contracted axis, no batch axis. -/
theorem plain0 : PlainMatmul.IsPlain dot_S4000x128_S128x16_S4000x16_1_0_0_1_n_n := ⟨rfl, rfl, rfl, rfl, rfl, rfl⟩

/-- Such a product into zero at `(p, q)`: the sum over the 128 contracted positions. -/
theorem mm0 (l : FVec Ideal S4000x128 .bf16) (r : FVec Ideal S128x16 .bf16) (p : Fin 4000) (q : Fin 16) :
    matmul dot_S4000x128_S128x16_S4000x16_1_0_0_1_n_n none l r (constant S4000x16 .f32 0x00000000#32) (ix2 p q)
      = ∑ k : Fin 128, l (ix2 p k) * r (ix2 k q) :=
  PlainMatmul.apply plain0 none l r p q

/-- The body's stored value at `(p, q)` of the tile, when the tile's operands are rows `r p` of whole arrays. -/
theorem body0_rows (inv : Vec Ideal S4000x1 .f32) (agg x : Vec Ideal S4000x128 .f32) (ws wn : Vec Ideal S128x16 .f32)
    (b : Vec Ideal S1x16 .f32)
    (X AGG : S100000x128.Idx → EReal) (INV : S100000x1.Idx → EReal) (WS WN : S128x16.Idx → EReal) (B : S1x16.Idx → EReal)
    (r : Fin 4000 → Fin 100000)
    (hx : ∀ (p : Fin 4000) (k : Fin 128), x (ix2 p k) = X (ix2 (r p) k))
    (hagg : ∀ (p : Fin 4000) (k : Fin 128), agg (ix2 p k) = AGG (ix2 (r p) k))
    (hinv : ∀ p : Fin 4000, inv (ix2 p (0 : Fin 1)) = INV (ix2 (r p) (0 : Fin 1)))
    (hws : ∀ (k : Fin 128) (q : Fin 16), ws (ix2 k q) = WS (ix2 k q))
    (hwn : ∀ (k : Fin 128) (q : Fin 16), wn (ix2 k q) = WN (ix2 k q))
    (hb : ∀ q : Fin 16, b (ix2 (0 : Fin 1) q) = B (ix2 (0 : Fin 1) q)) (p : Fin 4000) (q : Fin 16) :
    k0_pay1 (F := Ideal) inv agg x ws wn b (ix2 p q) = SageCombine.scaled true X AGG INV WS WN B (ix2 (r p) q) := by
  unfold k0_pay1
  rw [maximumf_apply, addf_apply, addf_apply, mm0, mm0, broadcastTo_1b_ab_apply, broadcast_apply, Ideal.ofBits_def,
    Ideal.ofBits_zero_f32]
  simp only [shapeCast_self]
  rw [hb, SageCombine.scaled_apply]
  show max (_ + _ + _) 0 = max (_ + _ + _) 0
  congr 3
  · refine Finset.sum_congr rfl fun k _ => ?_
    rw [truncf_apply, truncf_apply, hx, hws]
  · refine Finset.sum_congr rfl fun k _ => ?_
    rw [truncf_apply, truncf_apply, mulf_apply, Cert.ColumnLayout.broadcastTo_a1_ab_apply, hagg, hinv, hwn]

end Cert.KernelIdeal.Hand

end
-- ==== Proof.Region0.lean ====
/-
  The first combine call's result array, as one function of the arrays it finds.

  The call runs its body at 25 grid points; at point `t` the three row-tiled operands (features, neighbour sums, the
  column of per-row factors) are staged as rows `4000 t … 4000 t + 3999` of their arrays, the two weight matrices and
  the bias row whole, and the body's result is written back as the same rows of the result array. The 25 tiles cover
  the 100000 rows, so after the call the result array is ONE function of the arrays the call found when it was entered:
  the layer `SageCombine.scaled true` of them. The arrays the call finds are a parameter `V` here; which host
  operations wrote them is the next module's business.
-/
import proofs.«103128_j69097433858679_2_alg».proof.Proof.Gen.KernelIdeal.Frame
import proofs.«103128_j69097433858679_2_alg».proof.Proof.Body0
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-tiled windows sit at block `(t, 0)`, the others at block `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of the tile at point `t` is row `4000 t + p` of the array. -/
def row0 (t : Fin cfg0.N) (p : Fin 4000) : Fin 100000 :=
  ⟨4000 * t.val + p.val, by have h : cfg0.N = 25 := N_0; have := t.isLt; have := p.isLt; omega⟩

/-- Window 0's block at point `t` is rows `4000 t … 4000 t + 3999` of its array. -/
theorem iblk0_0_apply (c : Dev nD) (t : Fin cfg0.N) (p : Fin 4000) (k : Fin 128) :
    (iblk0 V c 0 t : Vec Ideal S4000x128 .f32) (ix2 p k) = (V c main_arg0 : S100000x128.Idx → EReal) (ix2 (row0 t p) k) := by
  obtain ⟨h00, h01, h10, h11, h20, h21, h60, h61, h30, h31, h40, h41, h50, h51⟩ := idx0 t
  unfold iblk0
  rw [View.read_apply]
  show V c main_arg0 _ = V c main_arg0 _
  congr 1
  funext a
  apply Fin.ext
  match a with
  | ⟨0, _⟩ => show win0_0.index t (0 : Fin 2) * 4000 + 1 * p.val = 4000 * t.val + p.val; rw [h00]; omega
  | ⟨1, _⟩ => show win0_0.index t (1 : Fin 2) * 128 + 1 * k.val = k.val; rw [h01]; omega

/-- Window 1's block at point `t` is rows `4000 t … 4000 t + 3999` of its array. -/
theorem iblk0_1_apply (c : Dev nD) (t : Fin cfg0.N) (p : Fin 4000) (k : Fin 128) :
    (iblk0 V c 1 t : Vec Ideal S4000x128 .f32) (ix2 p k) = (V c main_v18 : S100000x128.Idx → EReal) (ix2 (row0 t p) k) := by
  obtain ⟨h00, h01, h10, h11, h20, h21, h60, h61, h30, h31, h40, h41, h50, h51⟩ := idx0 t
  unfold iblk0
  rw [View.read_apply]
  show V c main_v18 _ = V c main_v18 _
  congr 1
  funext a
  apply Fin.ext
  match a with
  | ⟨0, _⟩ => show win0_1.index t (0 : Fin 2) * 4000 + 1 * p.val = 4000 * t.val + p.val; rw [h10]; omega
  | ⟨1, _⟩ => show win0_1.index t (1 : Fin 2) * 128 + 1 * k.val = k.val; rw [h11]; omega

/-- Window 2's block at point `t` is entries `4000 t … 4000 t + 3999` of the column of factors. -/
theorem iblk0_2_apply (c : Dev nD) (t : Fin cfg0.N) (p : Fin 4000) :
    (iblk0 V c 2 t : Vec Ideal S4000x1 .f32) (ix2 p (0 : Fin 1)) = (V c main_v8 : S100000x1.Idx → EReal) (ix2 (row0 t p) (0 : Fin 1)) := by
  obtain ⟨h00, h01, h10, h11, h20, h21, h60, h61, h30, h31, h40, h41, h50, h51⟩ := idx0 t
  unfold iblk0
  rw [View.read_apply]
  show V c main_v8 _ = V c main_v8 _
  congr 1
  funext a
  apply Fin.ext
  match a with
  | ⟨0, _⟩ => show win0_2.index t (0 : Fin 2) * 4000 + 1 * p.val = 4000 * t.val + p.val; rw [h20]; omega
  | ⟨1, _⟩ => show win0_2.index t (1 : Fin 2) * 1 + 1 * 0 = 0; rw [h21]
/-- Window 3's block at every point is its whole array. -/
theorem iblk0_3_apply (c : Dev nD) (t : Fin cfg0.N) (k : Fin 128) (q : Fin 16) :
    (iblk0 V c 3 t : Vec Ideal S128x16 .f32) (ix2 k q) = (V c main_arg4 : S128x16.Idx → EReal) (ix2 k q) := by
  obtain ⟨h00, h01, h10, h11, h20, h21, h60, h61, h30, h31, h40, h41, h50, h51⟩ := idx0 t
  unfold iblk0
  rw [View.read_apply]
  show V c main_arg4 _ = V c main_arg4 _
  congr 1
  funext a
  apply Fin.ext
  match a with
  | ⟨0, _⟩ => show win0_3.index t (0 : Fin 2) * 128 + 1 * k.val = k.val; rw [h30]; omega
  | ⟨1, _⟩ => show win0_3.index t (1 : Fin 2) * 16 + 1 * q.val = q.val; rw [h31]; omega

/-- Window 4's block at every point is its whole array. -/
theorem iblk0_4_apply (c : Dev nD) (t : Fin cfg0.N) (k : Fin 128) (q : Fin 16) :
    (iblk0 V c 4 t : Vec Ideal S128x16 .f32) (ix2 k q) = (V c main_arg3 : S128x16.Idx → EReal) (ix2 k q) := by
  obtain ⟨h00, h01, h10, h11, h20, h21, h60, h61, h30, h31, h40, h41, h50, h51⟩ := idx0 t
  unfold iblk0
  rw [View.read_apply]
  show V c main_arg3 _ = V c main_arg3 _
  congr 1
  funext a
  apply Fin.ext
  match a with
  | ⟨0, _⟩ => show win0_4.index t (0 : Fin 2) * 128 + 1 * k.val = k.val; rw [h40]; omega
  | ⟨1, _⟩ => show win0_4.index t (1 : Fin 2) * 16 + 1 * q.val = q.val; rw [h41]; omega

/-- Window 5's block at every point is the whole bias row. -/
theorem iblk0_5_apply (c : Dev nD) (t : Fin cfg0.N) (q : Fin 16) :
    (iblk0 V c 5 t : Vec Ideal S1x16 .f32) (ix2 (0 : Fin 1) q) = (V c main_v19 : S1x16.Idx → EReal) (ix2 (0 : Fin 1) q) := by
  obtain ⟨h00, h01, h10, h11, h20, h21, h60, h61, h30, h31, h40, h41, h50, h51⟩ := idx0 t
  unfold iblk0
  rw [View.read_apply]
  show V c main_v19 _ = V c main_v19 _
  congr 1
  funext a
  apply Fin.ext
  match a with
  | ⟨0, _⟩ => show win0_5.index t (0 : Fin 2) * 1 + 1 * 0 = 0; rw [h50]
  | ⟨1, _⟩ => show win0_5.index t (1 : Fin 2) * 16 + 1 * q.val = q.val; rw [h51]; omega

/-- What the result array holds after the call: the layer of the arrays the call found. -/
abbrev out0 (c : Dev nD) : S100000x16.Idx → EReal :=
  SageCombine.scaled true (V c main_arg0 : S100000x128.Idx → EReal) (V c main_v18 : S100000x128.Idx → EReal)
    (V c main_v8 : S100000x1.Idx → EReal) (V c main_arg4 : S128x16.Idx → EReal) (V c main_arg3 : S128x16.Idx → EReal)
    (V c main_v19 : S1x16.Idx → EReal)

/-- Entry `(p, q)` of the result tile at point `t` sits at `(4000 t + p, q)` of the result array. -/
theorem emb0_6 (t : Fin cfg0.N) (p : Fin 4000) (q : Fin 16) :
    ((cfg0.win 6).blk t).view.emb (ix2 p q : S4000x16.Idx) = (ix2 (row0 t p) q : S100000x16.Idx) := by
  obtain ⟨h00, h01, h10, h11, h20, h21, h60, h61, h30, h31, h40, h41, h50, h51⟩ := idx0 t
  funext a
  apply Fin.ext
  match a with
  | ⟨0, _⟩ => show win0_6.index t (0 : Fin 2) * 4000 + 1 * p.val = 4000 * t.val + p.val; rw [h60]; omega
  | ⟨1, _⟩ => show win0_6.index t (1 : Fin 2) * 16 + 1 * q.val = q.val; rw [h61]; omega

/-- What point `t` writes back is tile `t` of the layer. -/
theorem flushed0 (c : Dev nD) (t : Fin cfg0.N) :
    (dat0 V c).flushed 6 t = ((cfg0.win 6).blk t).view.read (Elt Ideal) (out0 V c) := by
  show (cfg0.win 6).cut (grid0.coords t) ((dat0 V c).after 6 t) = _
  rw [after0_6]
  unfold out0_6
  rw [View.canon_unit_zero hz0]
  simp only [View.ld_unit_zero (S := S4000x1) hz0, View.ld_unit_zero (S := S4000x128) hz0,
    View.ld_unit_zero (S := S128x16) hz0, View.ld_unit_zero (S := S1x16) hz0]
  funext j
  obtain ⟨p, q, rfl⟩ : ∃ (p : Fin 4000) (q : Fin 16), j = ix2 p q := ⟨j 0, j 1, eq_ix2 j⟩
  refine (body0_rows _ _ _ _ _ _ (V c main_arg0) (V c main_v18) (V c main_v8) (V c main_arg4) (V c main_arg3)
    (V c main_v19) (row0 t) (iblk0_0_apply V c t) (iblk0_1_apply V c t) (iblk0_2_apply V c t)
    (iblk0_3_apply V c t) (iblk0_4_apply V c t) (iblk0_5_apply V c t) p q).trans ?_
  rw [View.read_apply]
  exact congrArg (out0 V c) (emb0_6 t p q).symm

/-- An index of the result array is in point `t`'s tile iff each coordinate is in the tile's range on its axis. -/
theorem mem_blk0_6 (t : Fin cfg0.N) (i : S100000x16.Idx) :
    i ∈ ((cfg0.win 6).blk t).view.set ↔ ∀ a : Fin 2, win0_6.index t a * S4000x16.size a ≤ (i a).val
      ∧ (i a).val < win0_6.index t a * S4000x16.size a + S4000x16.size a := by
  show i ∈ ((View.whole main_v20).slice (win0_6.rect t)).set ↔ _
  rw [View.set_slice_whole, Rect.mem_set_unit]
  exact Iff.rfl

/-- Every row of the result array is in some tile: row `r` in tile `r / 4000`. -/
theorem cover0_6 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hN : cfg0.N = 25 := N_0
  have ht : (i 0).val / 4000 < cfg0.N := by rw [hN]; omega
  obtain ⟨h00, h01, h10, h11, h20, h21, h60, h61, h30, h31, h40, h41, h50, h51⟩ := idx0 ⟨(i 0).val / 4000, ht⟩
  refine ⟨⟨(i 0).val / 4000, ht⟩, flush0_6 _, ?_⟩
  rw [mem_blk0_6]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [h60]
    show (i 0).val / 4000 * 4000 ≤ (i 0).val ∧ (i 0).val < (i 0).val / 4000 * 4000 + 4000
    omega
  | ⟨1, _⟩ =>
    show win0_6.index ⟨(i 0).val / 4000, ht⟩ (1 : Fin 2) * 16 ≤ (i 1).val
      ∧ (i 1).val < win0_6.index ⟨(i 0).val / 4000, ht⟩ (1 : Fin 2) * 16 + 16
    rw [h61]
    omega

/-- THE RESULT ARRAY after the call: the layer of the arrays the call found, at every index. -/
theorem final0 (c : Dev nD) : (dat0 V c).arrAt 6 cfg0.N = out0 V c :=
  (dat0 V c).arrAt_eq_of_cover 6 (out0 V c) (fun t _ => flushed0 V c t) (cover0_6)

end Cert.KernelIdeal.Hand

end
-- ==== Proof.Body1.lean ====
/-
  The second combine call's body at an entry of its block.

  The same body as the first call's over the hidden width: a tile of 4000 rows of the hidden features `h` and of
  their neighbour sums `agg` (16 columns each), the per-row factors, two 16 × 40 weight matrices and the bias row; the
  two products are added, the bias row is added to every row, and nothing is clamped. At the entry `(p, q)` of the tile
  that is the layer `SageCombine.scaled false` at row `r p`, column `q`, of any whole arrays of which the tile's
  operands are the rows `r p`.
-/
import proofs.«103128_j69097433858679_2_alg».proof.Proof.Gen.KernelIdeal.Skeleton
import proofs.«103128_j69097433858679_2_alg».proof.Proof.LibMatmul
import proofs.«103128_j69097433858679_2_alg».proof.Proof.LibColumnLayout
import proofs.«103128_j69097433858679_2_alg».proof.Proof.LibSageCombine
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The second call's matrix products are plain: rows times columns, one contracted axis, no batch axis. -/
theorem plain1 : PlainMatmul.IsPlain dot_S4000x16_S16x40_S4000x40_1_0_0_1_n_n := ⟨rfl, rfl, rfl, rfl, rfl, rfl⟩

/-- Such a product into zero at `(p, q)`: the sum over the 16 contracted positions. -/
theorem mm1 (l : FVec Ideal S4000x16 .bf16) (r : FVec Ideal S16x40 .bf16) (p : Fin 4000) (q : Fin 40) :
    matmul dot_S4000x16_S16x40_S4000x40_1_0_0_1_n_n none l r (constant S4000x40 .f32 0x00000000#32) (ix2 p q)
      = ∑ k : Fin 16, l (ix2 p k) * r (ix2 k q) :=
  PlainMatmul.apply plain1 none l r p q

/-- The body's stored value at `(p, q)` of the tile, when the tile's operands are rows `r p` of whole arrays. -/
theorem body1_rows (inv : Vec Ideal S4000x1 .f32) (agg x : Vec Ideal S4000x16 .f32) (ws wn : Vec Ideal S16x40 .f32)
    (b : Vec Ideal S1x40 .f32)
    (X AGG : S100000x16.Idx → EReal) (INV : S100000x1.Idx → EReal) (WS WN : S16x40.Idx → EReal) (B : S1x40.Idx → EReal)
    (r : Fin 4000 → Fin 100000)
    (hx : ∀ (p : Fin 4000) (k : Fin 16), x (ix2 p k) = X (ix2 (r p) k))
    (hagg : ∀ (p : Fin 4000) (k : Fin 16), agg (ix2 p k) = AGG (ix2 (r p) k))
    (hinv : ∀ p : Fin 4000, inv (ix2 p (0 : Fin 1)) = INV (ix2 (r p) (0 : Fin 1)))
    (hws : ∀ (k : Fin 16) (q : Fin 40), ws (ix2 k q) = WS (ix2 k q))
    (hwn : ∀ (k : Fin 16) (q : Fin 40), wn (ix2 k q) = WN (ix2 k q))
    (hb : ∀ q : Fin 40, b (ix2 (0 : Fin 1) q) = B (ix2 (0 : Fin 1) q)) (p : Fin 4000) (q : Fin 40) :
    k1_pay1 (F := Ideal) inv agg x ws wn b (ix2 p q) = SageCombine.scaled false X AGG INV WS WN B (ix2 (r p) q) := by
  unfold k1_pay1
  rw [addf_apply, addf_apply, mm1, mm1, broadcastTo_1b_ab_apply]
  simp only [shapeCast_self]
  rw [hb, SageCombine.scaled_apply]
  show _ + _ + _ = _ + _ + _
  congr 2
  · refine Finset.sum_congr rfl fun k _ => ?_
    rw [truncf_apply, truncf_apply, hx, hws]
  · refine Finset.sum_congr rfl fun k _ => ?_
    rw [truncf_apply, truncf_apply, mulf_apply, Cert.ColumnLayout.broadcastTo_a1_ab_apply, hagg, hinv, hwn]

end Cert.KernelIdeal.Hand

end
-- ==== Proof.Region1.lean ====
/-
  The second combine call's result array, as one function of the arrays it finds.

  The call runs its body at 25 grid points; at point `t` the three row-tiled operands (features, neighbour sums, the
  column of per-row factors) are staged as rows `4000 t … 4000 t + 3999` of their arrays, the two weight matrices and
  the bias row whole, and the body's result is written back as the same rows of the result array. The 25 tiles cover
  the 100000 rows, so after the call the result array is ONE function of the arrays the call found when it was entered:
  the layer `SageCombine.scaled false` of them. The arrays the call finds are a parameter `V` here; which host
  operations wrote them is the next module's business.
-/
import proofs.«103128_j69097433858679_2_alg».proof.Proof.Gen.KernelIdeal.Frame
import proofs.«103128_j69097433858679_2_alg».proof.Proof.Body1
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-tiled windows sit at block `(t, 0)`, the others at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the tile at point `t` is row `4000 t + p` of the array. -/
def row1 (t : Fin cfg1.N) (p : Fin 4000) : Fin 100000 :=
  ⟨4000 * t.val + p.val, by have h : cfg1.N = 25 := N_1; have := t.isLt; have := p.isLt; omega⟩

/-- Window 0's block at point `t` is rows `4000 t … 4000 t + 3999` of its array. -/
theorem iblk1_0_apply (c : Dev nD) (t : Fin cfg1.N) (p : Fin 4000) (k : Fin 16) :
    (iblk1 V c 0 t : Vec Ideal S4000x16 .f32) (ix2 p k) = (V c main_v20 : S100000x16.Idx → EReal) (ix2 (row1 t p) k) := by
  obtain ⟨h00, h01, h10, h11, h20, h21, h60, h61, h30, h31, h40, h41, h50, h51⟩ := idx1 t
  unfold iblk1
  rw [View.read_apply]
  show V c main_v20 _ = V c main_v20 _
  congr 1
  funext a
  apply Fin.ext
  match a with
  | ⟨0, _⟩ => show win1_0.index t (0 : Fin 2) * 4000 + 1 * p.val = 4000 * t.val + p.val; rw [h00]; omega
  | ⟨1, _⟩ => show win1_0.index t (1 : Fin 2) * 16 + 1 * k.val = k.val; rw [h01]; omega

/-- Window 1's block at point `t` is rows `4000 t … 4000 t + 3999` of its array. -/
theorem iblk1_1_apply (c : Dev nD) (t : Fin cfg1.N) (p : Fin 4000) (k : Fin 16) :
    (iblk1 V c 1 t : Vec Ideal S4000x16 .f32) (ix2 p k) = (V c main_v30 : S100000x16.Idx → EReal) (ix2 (row1 t p) k) := by
  obtain ⟨h00, h01, h10, h11, h20, h21, h60, h61, h30, h31, h40, h41, h50, h51⟩ := idx1 t
  unfold iblk1
  rw [View.read_apply]
  show V c main_v30 _ = V c main_v30 _
  congr 1
  funext a
  apply Fin.ext
  match a with
  | ⟨0, _⟩ => show win1_1.index t (0 : Fin 2) * 4000 + 1 * p.val = 4000 * t.val + p.val; rw [h10]; omega
  | ⟨1, _⟩ => show win1_1.index t (1 : Fin 2) * 16 + 1 * k.val = k.val; rw [h11]; omega

/-- Window 2's block at point `t` is entries `4000 t … 4000 t + 3999` of the column of factors. -/
theorem iblk1_2_apply (c : Dev nD) (t : Fin cfg1.N) (p : Fin 4000) :
    (iblk1 V c 2 t : Vec Ideal S4000x1 .f32) (ix2 p (0 : Fin 1)) = (V c main_v8 : S100000x1.Idx → EReal) (ix2 (row1 t p) (0 : Fin 1)) := by
  obtain ⟨h00, h01, h10, h11, h20, h21, h60, h61, h30, h31, h40, h41, h50, h51⟩ := idx1 t
  unfold iblk1
  rw [View.read_apply]
  show V c main_v8 _ = V c main_v8 _
  congr 1
  funext a
  apply Fin.ext
  match a with
  | ⟨0, _⟩ => show win1_2.index t (0 : Fin 2) * 4000 + 1 * p.val = 4000 * t.val + p.val; rw [h20]; omega
  | ⟨1, _⟩ => show win1_2.index t (1 : Fin 2) * 1 + 1 * 0 = 0; rw [h21]
/-- Window 3's block at every point is its whole array. -/
theorem iblk1_3_apply (c : Dev nD) (t : Fin cfg1.N) (k : Fin 16) (q : Fin 40) :
    (iblk1 V c 3 t : Vec Ideal S16x40 .f32) (ix2 k q) = (V c main_arg7 : S16x40.Idx → EReal) (ix2 k q) := by
  obtain ⟨h00, h01, h10, h11, h20, h21, h60, h61, h30, h31, h40, h41, h50, h51⟩ := idx1 t
  unfold iblk1
  rw [View.read_apply]
  show V c main_arg7 _ = V c main_arg7 _
  congr 1
  funext a
  apply Fin.ext
  match a with
  | ⟨0, _⟩ => show win1_3.index t (0 : Fin 2) * 16 + 1 * k.val = k.val; rw [h30]; omega
  | ⟨1, _⟩ => show win1_3.index t (1 : Fin 2) * 40 + 1 * q.val = q.val; rw [h31]; omega

/-- Window 4's block at every point is its whole array. -/
theorem iblk1_4_apply (c : Dev nD) (t : Fin cfg1.N) (k : Fin 16) (q : Fin 40) :
    (iblk1 V c 4 t : Vec Ideal S16x40 .f32) (ix2 k q) = (V c main_arg6 : S16x40.Idx → EReal) (ix2 k q) := by
  obtain ⟨h00, h01, h10, h11, h20, h21, h60, h61, h30, h31, h40, h41, h50, h51⟩ := idx1 t
  unfold iblk1
  rw [View.read_apply]
  show V c main_arg6 _ = V c main_arg6 _
  congr 1
  funext a
  apply Fin.ext
  match a with
  | ⟨0, _⟩ => show win1_4.index t (0 : Fin 2) * 16 + 1 * k.val = k.val; rw [h40]; omega
  | ⟨1, _⟩ => show win1_4.index t (1 : Fin 2) * 40 + 1 * q.val = q.val; rw [h41]; omega

/-- Window 5's block at every point is the whole bias row. -/
theorem iblk1_5_apply (c : Dev nD) (t : Fin cfg1.N) (q : Fin 40) :
    (iblk1 V c 5 t : Vec Ideal S1x40 .f32) (ix2 (0 : Fin 1) q) = (V c main_v31 : S1x40.Idx → EReal) (ix2 (0 : Fin 1) q) := by
  obtain ⟨h00, h01, h10, h11, h20, h21, h60, h61, h30, h31, h40, h41, h50, h51⟩ := idx1 t
  unfold iblk1
  rw [View.read_apply]
  show V c main_v31 _ = V c main_v31 _
  congr 1
  funext a
  apply Fin.ext
  match a with
  | ⟨0, _⟩ => show win1_5.index t (0 : Fin 2) * 1 + 1 * 0 = 0; rw [h50]
  | ⟨1, _⟩ => show win1_5.index t (1 : Fin 2) * 40 + 1 * q.val = q.val; rw [h51]; omega

/-- What the result array holds after the call: the layer of the arrays the call found. -/
abbrev out1 (c : Dev nD) : S100000x40.Idx → EReal :=
  SageCombine.scaled false (V c main_v20 : S100000x16.Idx → EReal) (V c main_v30 : S100000x16.Idx → EReal)
    (V c main_v8 : S100000x1.Idx → EReal) (V c main_arg7 : S16x40.Idx → EReal) (V c main_arg6 : S16x40.Idx → EReal)
    (V c main_v31 : S1x40.Idx → EReal)

/-- Entry `(p, q)` of the result tile at point `t` sits at `(4000 t + p, q)` of the result array. -/
theorem emb1_6 (t : Fin cfg1.N) (p : Fin 4000) (q : Fin 40) :
    ((cfg1.win 6).blk t).view.emb (ix2 p q : S4000x40.Idx) = (ix2 (row1 t p) q : S100000x40.Idx) := by
  obtain ⟨h00, h01, h10, h11, h20, h21, h60, h61, h30, h31, h40, h41, h50, h51⟩ := idx1 t
  funext a
  apply Fin.ext
  match a with
  | ⟨0, _⟩ => show win1_6.index t (0 : Fin 2) * 4000 + 1 * p.val = 4000 * t.val + p.val; rw [h60]; omega
  | ⟨1, _⟩ => show win1_6.index t (1 : Fin 2) * 40 + 1 * q.val = q.val; rw [h61]; omega

/-- What point `t` writes back is tile `t` of the layer. -/
theorem flushed1 (c : Dev nD) (t : Fin cfg1.N) :
    (dat1 V c).flushed 6 t = ((cfg1.win 6).blk t).view.read (Elt Ideal) (out1 V c) := by
  show (cfg1.win 6).cut (grid1.coords t) ((dat1 V c).after 6 t) = _
  rw [after1_6]
  unfold out1_6
  rw [View.canon_unit_zero hz1]
  simp only [View.ld_unit_zero (S := S4000x1) hz1, View.ld_unit_zero (S := S4000x16) hz1,
    View.ld_unit_zero (S := S16x40) hz1, View.ld_unit_zero (S := S1x40) hz1]
  funext j
  obtain ⟨p, q, rfl⟩ : ∃ (p : Fin 4000) (q : Fin 40), j = ix2 p q := ⟨j 0, j 1, eq_ix2 j⟩
  refine (body1_rows _ _ _ _ _ _ (V c main_v20) (V c main_v30) (V c main_v8) (V c main_arg7) (V c main_arg6)
    (V c main_v31) (row1 t) (iblk1_0_apply V c t) (iblk1_1_apply V c t) (iblk1_2_apply V c t)
    (iblk1_3_apply V c t) (iblk1_4_apply V c t) (iblk1_5_apply V c t) p q).trans ?_
  rw [View.read_apply]
  exact congrArg (out1 V c) (emb1_6 t p q).symm

/-- An index of the result array is in point `t`'s tile iff each coordinate is in the tile's range on its axis. -/
theorem mem_blk1_6 (t : Fin cfg1.N) (i : S100000x40.Idx) :
    i ∈ ((cfg1.win 6).blk t).view.set ↔ ∀ a : Fin 2, win1_6.index t a * S4000x40.size a ≤ (i a).val
      ∧ (i a).val < win1_6.index t a * S4000x40.size a + S4000x40.size a := by
  show i ∈ ((View.whole main_v32).slice (win1_6.rect t)).set ↔ _
  rw [View.set_slice_whole, Rect.mem_set_unit]
  exact Iff.rfl

/-- Every row of the result array is in some tile: row `r` in tile `r / 4000`. -/
theorem cover1_6 (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  have hN : cfg1.N = 25 := N_1
  have ht : (i 0).val / 4000 < cfg1.N := by rw [hN]; omega
  obtain ⟨h00, h01, h10, h11, h20, h21, h60, h61, h30, h31, h40, h41, h50, h51⟩ := idx1 ⟨(i 0).val / 4000, ht⟩
  refine ⟨⟨(i 0).val / 4000, ht⟩, flush1_6 _, ?_⟩
  rw [mem_blk1_6]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [h60]
    show (i 0).val / 4000 * 4000 ≤ (i 0).val ∧ (i 0).val < (i 0).val / 4000 * 4000 + 4000
    omega
  | ⟨1, _⟩ =>
    show win1_6.index ⟨(i 0).val / 4000, ht⟩ (1 : Fin 2) * 40 ≤ (i 1).val
      ∧ (i 1).val < win1_6.index ⟨(i 0).val / 4000, ht⟩ (1 : Fin 2) * 40 + 40
    rw [h61]
    omega

/-- THE RESULT ARRAY after the call: the layer of the arrays the call found, at every index. -/
theorem final1 (c : Dev nD) : (dat1 V c).arrAt 6 cfg1.N = out1 V c :=
  (dat1 V c).arrAt_eq_of_cover 6 (out1 V c) (fun t _ => flushed1 V c t) (cover1_6)

end Cert.KernelIdeal.Hand

end
-- ==== Proof.HostTerms.lean ====
/-
  What the kernel's two stretches of host operations compute, as named functions of the arguments.

  Before the first combine call the host computes, from the edge lists `src` and `dst` alone: the neighbour count of
  every node (ones scattered and added at `dst`, `degOf`), the column of reciprocals of the count clamped below by one
  (`invOf`), the neighbour sums of the input features (rows gathered at `src` — a negative index wrapped by the number of
  nodes first, `srcCol` — then scattered and added at `dst`, `agg1Of`), and the first bias as a row. Between the calls
  it computes the neighbour sums of the hidden features the same way (`agg2Of`) and the second bias as a row. The
  gathers and accumulating scatters are never opened: the reference applies the very same operations, so they are
  carried as they stand. Each stretch is then read at the buffers the calls consume, from ANY contents it starts at.
-/
import proofs.«103128_j69097433858679_2_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The gather's start indices: `src`, a negative entry wrapped by the number of nodes, as a column. -/
def srcCol (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- Every node's neighbour count: a one per edge, added at the edge's destination. -/
def degOf (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x2)
    (broadcastInDim S1600000 ![] bcast_S_S1600000 (constant S_ .f32 0x3F800000#32))

/-- The column of reciprocals of the neighbour counts clamped below by one. -/
def invOf (x2 : (⟨S1600000, .i32⟩ : BufTy).Contents (Elt F)) : (⟨S100000x1, .f32⟩ : BufTy).Contents (Elt F) :=
  shapeCast S100000x1
    (Host.divf (broadcastInDim S100000 ![] bcast_S_S100000 (constant S_ .f32 0x3F800000#32))
      (maximumf (degOf x2) (broadcastInDim S100000 ![] bcast_S_S100000 (constant S_ .f32 0x3F800000#32))))
    shapeCasts_S100000_S100000x1

/-- The neighbour sums of the input features: rows gathered at `src`, added at `dst`. -/
def agg1Of (x0 : (⟨S100000x128, .f32⟩ : BufTy).Contents (Elt F)) (x1 x2 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (Host.gather gather_S100000x128_S1600000x1_S1600000x128_1_0_n_n_0_1_1128 x0 (srcCol x1))

/-- The neighbour sums of the hidden features: rows gathered at `src`, added at `dst`. -/
def agg2Of (h : (⟨S100000x16, .f32⟩ : BufTy).Contents (Elt F)) (x1 x2 : (⟨S1600000, .i32⟩ : BufTy).Contents (Elt F)) :
    (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 x2)
    (Host.gather gather_S100000x16_S1600000x1_S1600000x16_1_0_n_n_0_1_116 h (srcCol x1))

/-- The first bias as a row. -/
def biasRow1 (x5 : (⟨S16, .f32⟩ : BufTy).Contents (Elt F)) : (⟨S1x16, .f32⟩ : BufTy).Contents (Elt F) :=
  shapeCast S1x16 x5 shapeCasts_S16_S1x16

/-- The second bias as a row. -/
def biasRow2 (x8 : (⟨S40, .f32⟩ : BufTy).Contents (Elt F)) : (⟨S1x40, .f32⟩ : BufTy).Contents (Elt F) :=
  shapeCast S1x40 x8 shapeCasts_S40_S1x40

variable (W : Valuation τ sig (Elt F))

/-! ## The first stretch, from any contents -/

set_option maxHeartbeats 2000000 in
theorem st0_v18 : StableHlo.after hostOps0 W (Proc.devRef .tc main_v18)
    = agg1Of (W (Proc.devRef .tc main_arg0)) (W (Proc.devRef .tc main_arg1)) (W (Proc.devRef .tc main_arg2)) := by
  after_results_simp <;> rfl

theorem st0_v8 : StableHlo.after hostOps0 W (Proc.devRef .tc main_v8) = invOf (W (Proc.devRef .tc main_arg2)) := by
  after_results_simp <;> rfl

theorem st0_v19 : StableHlo.after hostOps0 W (Proc.devRef .tc main_v19) = biasRow1 (W (Proc.devRef .tc main_arg5)) := by
  after_results_simp <;> rfl

theorem st0_arg0 : StableHlo.after hostOps0 W (Proc.devRef .tc main_arg0) = W (Proc.devRef .tc main_arg0) := by after_results_simp
theorem st0_arg1 : StableHlo.after hostOps0 W (Proc.devRef .tc main_arg1) = W (Proc.devRef .tc main_arg1) := by after_results_simp
theorem st0_arg2 : StableHlo.after hostOps0 W (Proc.devRef .tc main_arg2) = W (Proc.devRef .tc main_arg2) := by after_results_simp
theorem st0_arg3 : StableHlo.after hostOps0 W (Proc.devRef .tc main_arg3) = W (Proc.devRef .tc main_arg3) := by after_results_simp
theorem st0_arg4 : StableHlo.after hostOps0 W (Proc.devRef .tc main_arg4) = W (Proc.devRef .tc main_arg4) := by after_results_simp
theorem st0_arg6 : StableHlo.after hostOps0 W (Proc.devRef .tc main_arg6) = W (Proc.devRef .tc main_arg6) := by after_results_simp
theorem st0_arg7 : StableHlo.after hostOps0 W (Proc.devRef .tc main_arg7) = W (Proc.devRef .tc main_arg7) := by after_results_simp
theorem st0_arg8 : StableHlo.after hostOps0 W (Proc.devRef .tc main_arg8) = W (Proc.devRef .tc main_arg8) := by after_results_simp

/-! ## The second stretch, from any contents -/

set_option maxHeartbeats 2000000 in
theorem st1_v30 : StableHlo.after hostOps1 W (Proc.devRef .tc main_v30)
    = agg2Of (W (Proc.devRef .tc main_v20)) (W (Proc.devRef .tc main_arg1)) (W (Proc.devRef .tc main_arg2)) := by
  after_results_simp <;> rfl

theorem st1_v31 : StableHlo.after hostOps1 W (Proc.devRef .tc main_v31) = biasRow2 (W (Proc.devRef .tc main_arg8)) := by
  after_results_simp <;> rfl

theorem st1_v20 : StableHlo.after hostOps1 W (Proc.devRef .tc main_v20) = W (Proc.devRef .tc main_v20) := by after_results_simp
theorem st1_v8 : StableHlo.after hostOps1 W (Proc.devRef .tc main_v8) = W (Proc.devRef .tc main_v8) := by after_results_simp
theorem st1_arg6 : StableHlo.after hostOps1 W (Proc.devRef .tc main_arg6) = W (Proc.devRef .tc main_arg6) := by after_results_simp
theorem st1_arg7 : StableHlo.after hostOps1 W (Proc.devRef .tc main_arg7) = W (Proc.devRef .tc main_arg7) := by after_results_simp

end Cert.KernelIdeal.Hand

end
-- ==== Proof.KernelSpec.lean ====
/-
  The two layers the kernel computes, as functions of its nine arguments.

  `hiddenOf` is the first layer: the input features and their neighbour sums (scaled row by row by the reciprocal of the
  clamped neighbour count) through the first pair of weight matrices, plus the first bias, clamped at zero. `resultOf` is
  the second layer over the hidden features and the neighbour sums OF the hidden features, through the second pair of
  weights, plus the second bias, not clamped. The host-side pieces (neighbour sums, reciprocal counts, bias rows) are the
  named functions of the host-operations module.
-/
import proofs.«103128_j69097433858679_2_alg».proof.Proof.HostTerms
import proofs.«103128_j69097433858679_2_alg».proof.Proof.LibSageCombine

noncomputable section

open Idealize.ShloMosaic

namespace Cert.KernelIdeal.Hand

open Cert.KernelIdeal

/-- The hidden features: the first layer, clamped at zero, of the input features and their neighbour sums. -/
def hiddenOf (x0 : (⟨S100000x128, .f32⟩ : BufTy).Contents (Elt Ideal)) (x1 x2 : (⟨S1600000, .i32⟩ : BufTy).Contents (Elt Ideal))
    (x3 x4 : (⟨S128x16, .f32⟩ : BufTy).Contents (Elt Ideal)) (x5 : (⟨S16, .f32⟩ : BufTy).Contents (Elt Ideal)) :
    (⟨S100000x16, .f32⟩ : BufTy).Contents (Elt Ideal) :=
  SageCombine.scaled (N := 100000) (K := 128) (H := 16) true x0 (agg1Of x0 x1 x2) (invOf x2) x4 x3 (biasRow1 x5)

/-- The result: the second layer, not clamped, of the hidden features and THEIR neighbour sums. -/
def resultOf (x0 : (⟨S100000x128, .f32⟩ : BufTy).Contents (Elt Ideal)) (x1 x2 : (⟨S1600000, .i32⟩ : BufTy).Contents (Elt Ideal))
    (x3 x4 : (⟨S128x16, .f32⟩ : BufTy).Contents (Elt Ideal)) (x5 : (⟨S16, .f32⟩ : BufTy).Contents (Elt Ideal))
    (x6 x7 : (⟨S16x40, .f32⟩ : BufTy).Contents (Elt Ideal)) (x8 : (⟨S40, .f32⟩ : BufTy).Contents (Elt Ideal)) :
    (⟨S100000x40, .f32⟩ : BufTy).Contents (Elt Ideal) :=
  SageCombine.scaled (N := 100000) (K := 16) (H := 40) false (hiddenOf x0 x1 x2 x3 x4 x5)
    (agg2Of (hiddenOf x0 x1 x2 x3 x4 x5) x1 x2) (invOf x2) x7 x6 (biasRow2 x8)

end Cert.KernelIdeal.Hand

end
-- ==== Proof.KernelRun.lean ====
/-
  The idealized kernel's run with its result named.

  The kernel's host program is four segments: a stretch of host operations, the first combine call, a second
  stretch, the second combine call. The buffer contents at the boundaries are a fold through those segments
  (the generated frame module's `W0 … W4`): a stretch applies its operations to what it finds, a call leaves its
  arrays at what its write-backs left and every other buffer alone. Every weakly fair execution ends with every
  unscoped buffer at the last boundary's contents `W4`; the arguments are among them and so is the result
  `main_v32`. Here the run is stated with that one more buffer in its post: the result array ends at
  `W4 … main_v32`, the arguments end as launched. What `W4 … main_v32` is, index by index, is the business of the
  other modules.
-/
import proofs.«103128_j69097433858679_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's host program terminates, nothing faulting, with the result array at the
    last boundary's contents and the argument arrays as launched. -/
theorem run_out : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Hand

end
-- ==== Proof.KernelValue.lean ====
/-
  The idealized kernel's result as one function of its arguments.

  Follow the buffer contents through the host program's four segments. The first stretch of host operations writes the
  neighbour sums of the input features, the column of reciprocal clamped neighbour counts and the first bias row; the
  first combine call then leaves in its result array the layer `SageCombine.scaled true` of what it found: the hidden
  features `hiddenOf`. The second stretch gathers and sums THOSE hidden features along the same edges; the second call
  leaves the layer `SageCombine.scaled false` of the hidden features, their neighbour sums, the same column of
  reciprocals, the second weights and bias: `resultOf`. No call and no host operation writes an argument, so every
  argument is read, at every boundary, at its launch contents.
-/
import proofs.«103128_j69097433858679_2_alg».proof.Proof.Gen.KernelIdeal.Frame
import proofs.«103128_j69097433858679_2_alg».proof.Proof.Region0
import proofs.«103128_j69097433858679_2_alg».proof.Proof.Region1
import proofs.«103128_j69097433858679_2_alg».proof.Proof.HostTerms
import proofs.«103128_j69097433858679_2_alg».proof.Proof.KernelSpec
import proofs.«103128_j69097433858679_2_alg».proof.Proof.KernelRun

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## What the first call finds -/

theorem V1_arg0 (c : Dev nD) : V1 m ρ c main_arg0 = m ((c : Thread nD τ).loc main_arg0) := st0_arg0 (W0 m ρ c)
theorem V1_arg3 (c : Dev nD) : V1 m ρ c main_arg3 = m ((c : Thread nD τ).loc main_arg3) := st0_arg3 (W0 m ρ c)
theorem V1_arg4 (c : Dev nD) : V1 m ρ c main_arg4 = m ((c : Thread nD τ).loc main_arg4) := st0_arg4 (W0 m ρ c)
theorem V1_v18 (c : Dev nD) : V1 m ρ c main_v18 = agg1Of (m ((c : Thread nD τ).loc main_arg0)) (m ((c : Thread nD τ).loc main_arg1)) (m ((c : Thread nD τ).loc main_arg2)) := st0_v18 (W0 m ρ c)
theorem V1_v8 (c : Dev nD) : V1 m ρ c main_v8 = invOf (m ((c : Thread nD τ).loc main_arg2)) := st0_v8 (W0 m ρ c)
theorem V1_v19 (c : Dev nD) : V1 m ρ c main_v19 = biasRow1 (m ((c : Thread nD τ).loc main_arg5)) := st0_v19 (W0 m ρ c)

/-- The first call's result array: the hidden features of the arguments. -/
theorem hidden_eq (c : Dev nD) :
    out0 (V1 m ρ) c = hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold hiddenOf
  show SageCombine.scaled true (V1 m ρ c main_arg0) (V1 m ρ c main_v18) (V1 m ρ c main_v8) (V1 m ρ c main_arg4)
    (V1 m ρ c main_arg3) (V1 m ρ c main_v19) = _
  rw [V1_arg0, V1_v18, V1_v8, V1_arg4, V1_arg3, V1_v19]

/-! ## The contents between the calls -/

theorem W2_v20 (c : Dev nD) : W2 m ρ c (Proc.devRef .tc main_v20)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans ((final0 (V1 m ρ) c).trans (hidden_eq m ρ c))

theorem W2_v8 (c : Dev nD) : W2 m ρ c (Proc.devRef .tc main_v8) = invOf (m ((c : Thread nD τ).loc main_arg2)) :=
  (W2_arr m ρ c 2).trans ((((dat0 (V1 m ρ) c).arrAt_in 2 rfl _).trans (A_eq0 (V1 m ρ) c 2)).trans (V1_v8 m ρ c))

theorem W2_arg1 (c : Dev nD) : W2 m ρ c (Proc.devRef .tc main_arg1) = m ((c : Thread nD τ).loc main_arg1) :=
  (W2_of_ne m ρ c main_arg1 (by decide)).trans (st0_arg1 (W0 m ρ c))
theorem W2_arg2 (c : Dev nD) : W2 m ρ c (Proc.devRef .tc main_arg2) = m ((c : Thread nD τ).loc main_arg2) :=
  (W2_of_ne m ρ c main_arg2 (by decide)).trans (st0_arg2 (W0 m ρ c))
theorem W2_arg6 (c : Dev nD) : W2 m ρ c (Proc.devRef .tc main_arg6) = m ((c : Thread nD τ).loc main_arg6) :=
  (W2_of_ne m ρ c main_arg6 (by decide)).trans (st0_arg6 (W0 m ρ c))
theorem W2_arg7 (c : Dev nD) : W2 m ρ c (Proc.devRef .tc main_arg7) = m ((c : Thread nD τ).loc main_arg7) :=
  (W2_of_ne m ρ c main_arg7 (by decide)).trans (st0_arg7 (W0 m ρ c))
theorem W2_arg8 (c : Dev nD) : W2 m ρ c (Proc.devRef .tc main_arg8) = m ((c : Thread nD τ).loc main_arg8) :=
  (W2_of_ne m ρ c main_arg8 (by decide)).trans (st0_arg8 (W0 m ρ c))

/-! ## What the second call finds -/

theorem V3_v20 (c : Dev nD) : V3 m ρ c main_v20 = hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (st1_v20 (W2 m ρ c)).trans (W2_v20 m ρ c)

theorem V3_v30 (c : Dev nD) : V3 m ρ c main_v30
    = agg2Of (hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (st1_v30 (W2 m ρ c)).trans ?_
  rw [W2_v20, W2_arg1, W2_arg2]

theorem V3_v8 (c : Dev nD) : V3 m ρ c main_v8 = invOf (m ((c : Thread nD τ).loc main_arg2)) := (st1_v8 (W2 m ρ c)).trans (W2_v8 m ρ c)
theorem V3_arg6 (c : Dev nD) : V3 m ρ c main_arg6 = m ((c : Thread nD τ).loc main_arg6) :=
  (st1_arg6 (W2 m ρ c)).trans (W2_arg6 m ρ c)
theorem V3_arg7 (c : Dev nD) : V3 m ρ c main_arg7 = m ((c : Thread nD τ).loc main_arg7) :=
  (st1_arg7 (W2 m ρ c)).trans (W2_arg7 m ρ c)
theorem V3_v31 (c : Dev nD) : V3 m ρ c main_v31 = biasRow2 (m ((c : Thread nD τ).loc main_arg8)) := by
  refine (st1_v31 (W2 m ρ c)).trans ?_
  rw [W2_arg8]

/-- The second call's result array: the result of the arguments. -/
theorem result_eq (c : Dev nD) :
    out1 (V3 m ρ) c = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold resultOf
  show SageCombine.scaled false (V3 m ρ c main_v20) (V3 m ρ c main_v30) (V3 m ρ c main_v8) (V3 m ρ c main_arg7)
    (V3 m ρ c main_arg6) (V3 m ρ c main_v31) = _
  rw [V3_v20, V3_v30, V3_v8, V3_arg7, V3_arg6, V3_v31]

/-- The last boundary's contents at the result buffer. -/
theorem W4_v32 (c : Dev nD) : W4 m ρ c (Proc.devRef .tc main_v32)
    = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 6).trans ((final1 (V3 m ρ) c).trans (result_eq m ρ c))

/-- THE KERNEL'S RUN, READ: every weakly fair execution terminates with the result array at `resultOf` of the arguments'
    launch contents, the arguments unchanged. -/
theorem run : θ_run defs (onTc (τ := τ) (main (F := Ideal))) ⟨m, fun _ => 0, ρ⟩ (fun r => ∀ c : Dev nD,
      r.2.mem ((c.tc : Thread nD τ).loc main_v32)
        = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_v32 m ρ c), (h c).2⟩) (run_out m ρ)

end Cert.KernelIdeal.Hand

end
-- ==== Proof.SharedHost.lean ====
/-
  What the two programs' host sides have in common, and the kernel's stored factors read at an entry.

  The reference's neighbour sums and neighbour counts are the very operations the kernel's host program applies — the
  same gather along `src`, the same accumulating scatters at `dst`, with the same dimension numbers — so they are equal
  as they stand, without opening a gather or a scatter (they are kept closed here on purpose). On the kernel's side the
  column of stored factors, read at row `p`, is `1 / max (count p) 1`, and each bias row, read at column `q`, is the bias
  vector's entry `q`.
-/
import proofs.«103128_j69097433858679_2_alg».proof.Proof.Gen.ReferenceIdeal.Read
import proofs.«103128_j69097433858679_2_alg».proof.Proof.KernelSpec
import proofs.«103128_j69097433858679_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.Bridge

open Cert.ReferenceIdeal Cert.ReferenceIdeal.Read Cert.KernelIdeal.Hand

-- the gathers and the accumulating scatters are compared by their operands only, never opened
attribute [local irreducible] Host.scatterAdd Host.gather

variable (x0 : (⟨S100000x128, .f32⟩ : BufTy).Contents (Elt Ideal)) (x1 x2 : (⟨S1600000, .i32⟩ : BufTy).Contents (Elt Ideal))
  (x3 x4 : (⟨S128x16, .f32⟩ : BufTy).Contents (Elt Ideal)) (x5 : (⟨S16, .f32⟩ : BufTy).Contents (Elt Ideal))
  (x8 : (⟨S40, .f32⟩ : BufTy).Contents (Elt Ideal))

/-! ## The host operations the two programs share -/

/-- The reference's neighbour sums of the input features are the kernel's. -/
theorem agg1_eq : val_main_v9 (F := Ideal) x0 x1 x2 = agg1Of x0 x1 x2 := rfl

/-- The reference's neighbour count (first layer) is the kernel's. -/
theorem deg_eq : val_main_v13 (F := Ideal) x2 = degOf x2 := rfl

/-- The reference's neighbour count (second layer, computed again) is the kernel's. -/
theorem deg_eq' : val_main_v39 (F := Ideal) x2 = degOf x2 := rfl

/-- The reference's neighbour sums of its hidden features are the kernel's operations applied to those features. -/
theorem agg2_eq : val_main_v35 (F := Ideal) x0 x1 x2 x3 x4 x5
    = agg2Of (val_main_v25 (F := Ideal) x0 x1 x2 x3 x4 x5) x1 x2 := rfl

/-! ## The kernel's stored factors and bias rows at an entry -/

/-- The vector of ones the host divides into reads one everywhere. -/
theorem ones_apply (i : Cert.KernelIdeal.S100000.Idx) :
    broadcastInDim Cert.KernelIdeal.S100000 ![] Cert.KernelIdeal.Gen.bcast_S_S100000
      (constant (F := Ideal) Cert.KernelIdeal.S_ .f32 0x3F800000#32) i = 1 := by
  rw [broadcastInDim_apply _ Cert.KernelIdeal.Gen.bcast_S_S100000 _ i (fun a => a.elim0) (fun a => a.elim0), constant_apply]
  exact MeanScale.one_bits

/-- The host's quotient and clamp are entry by entry. -/
theorem recip_apply (one d : FVec Ideal Cert.KernelIdeal.S100000 .f32) (i : Cert.KernelIdeal.S100000.Idx) :
    Host.divf (F := Ideal) one (maximumf d one) i = Ideal.div (one i) (max (d i) (one i)) := rfl

/-- The stored factor of row `p` is the reciprocal of the row's neighbour count clamped below by one. -/
theorem inv_apply (p : Fin 100000) :
    invOf (F := Ideal) x2 (ix2 p (0 : Fin 1)) = Ideal.div 1 (max (degOf (F := Ideal) x2 (ix1 p)) 1) := by
  unfold invOf
  rw [Cert.ColumnLayout.shapeCast_a_a1_apply, recip_apply, ones_apply]

/-- The first bias row at column `q` is the bias vector's entry `q`. -/
theorem bias1_apply (q : Fin 16) : biasRow1 (F := Ideal) x5 (ix2 (0 : Fin 1) q) = x5 (ix1 q) := by
  unfold biasRow1
  exact shapeCast_a_1a_apply _ _ (0 : Fin 1) q

/-- The second bias row at column `q` is the bias vector's entry `q`. -/
theorem bias2_apply (q : Fin 40) : biasRow2 (F := Ideal) x8 (ix2 (0 : Fin 1) q) = x8 (ix1 q) := by
  unfold biasRow2
  exact shapeCast_a_1a_apply _ _ (0 : Fin 1) q

end Cert.Bridge

end
-- ==== Proof.RefLayers.lean ====
/-
  The reference's two layers, entry by entry.

  The reference is two calls of one layer: neighbour sums, a neighbour count, the sums DIVIDED by the count clamped below
  by one, two matrix products (features times self weights, means times neighbour weights), a bias, and after the first
  layer a clamp at zero. Read at the entry `(p, q)` — each matrix product as the sum over its contracted axis, each
  broadcast as the operand's entry it repeats — each layer is `SageCombine.divided` of the layer's input, its neighbour
  sums and the count. The neighbour sums and the counts are gathers and accumulating scatters over 1.6 million edges:
  they are carried as they stand and kept closed, and every index a broadcast computes is identified with the
  coordinates `(p, k)`, `(k, q)`, `p`, `q` by an equation of its own, so that no step ever compares two of them by
  unfolding.
-/
import proofs.«103128_j69097433858679_2_alg».proof.Proof.Gen.ReferenceIdeal.Read
import proofs.«103128_j69097433858679_2_alg».proof.Proof.LibSageCombine
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.Bridge

open Cert.ReferenceIdeal Cert.ReferenceIdeal.Read

-- the gathers and the accumulating scatters stay closed
attribute [local irreducible] Host.scatterAdd Host.gather

variable (x0 : (⟨S100000x128, .f32⟩ : BufTy).Contents (Elt Ideal)) (x1 x2 : (⟨S1600000, .i32⟩ : BufTy).Contents (Elt Ideal))
  (x3 x4 : (⟨S128x16, .f32⟩ : BufTy).Contents (Elt Ideal)) (x5 : (⟨S16, .f32⟩ : BufTy).Contents (Elt Ideal))
  (x6 x7 : (⟨S16x40, .f32⟩ : BufTy).Contents (Elt Ideal)) (x8 : (⟨S40, .f32⟩ : BufTy).Contents (Elt Ideal))

theorem act_true (v : EReal) : SageCombine.act true v = max v 0 := rfl
theorem act_false (v : EReal) : SageCombine.act false v = v := rfl

/-! ## The first layer -/

/-- The first layer's mean at `(p, k)`: the neighbour sum over the clamped count of row `p`. -/
theorem mean1_apply (p : Fin 100000) (k : Fin 128) :
    val_main_v18 (F := Ideal) x0 x1 x2 (ix2 p k)
      = Ideal.div (val_main_v9 (F := Ideal) x0 x1 x2 (ix2 p k)) (max (val_main_v13 (F := Ideal) x2 (ix1 p)) 1) := by
  have e : idx_main_v16 (idx_main_v17 (ix2 p k : S100000x128.Idx)) = (ix1 p : S100000.Idx) :=
    funext fun a => Fin.ext (by match a with | ⟨0, _⟩ => rfl)
  rw [val_main_v18_apply, val_main_v17_apply, val_main_v16_apply, val_main_v15_apply, val_main_v14_apply,
    val_main_cst_3_apply, e, Ideal.hostDivf_def, Ideal.maximumf_def, Ideal.ofBits_def, MeanScale.one_bits]

/-- The reference's first layer at `(p, q)`. -/
theorem layer1_at (p : Fin 100000) (q : Fin 16) :
    val_main_v25 (F := Ideal) x0 x1 x2 x3 x4 x5 (ix2 p q)
      = SageCombine.dividedAt (N := 100000) (K := 128) (H := 16) true x0 (val_main_v9 (F := Ideal) x0 x1 x2)
          (val_main_v13 (F := Ideal) x2) x4 x3 x5 p q := by
  have el : ∀ k : Fin 128, lidx_main_v19 (ix2 p q : S100000x16.Idx) k = (ix2 p k : S100000x128.Idx) := fun k =>
    funext fun a => Fin.ext (by match a with | ⟨0, _⟩ => rfl | ⟨1, _⟩ => rfl)
  have er : ∀ k : Fin 128, ridx_main_v19 (ix2 p q : S100000x16.Idx) k = (ix2 k q : S128x16.Idx) := fun k =>
    funext fun a => Fin.ext (by match a with | ⟨0, _⟩ => rfl | ⟨1, _⟩ => rfl)
  have el' : ∀ k : Fin 128, lidx_main_v20 (ix2 p q : S100000x16.Idx) k = (ix2 p k : S100000x128.Idx) := fun k =>
    funext fun a => Fin.ext (by match a with | ⟨0, _⟩ => rfl | ⟨1, _⟩ => rfl)
  have er' : ∀ k : Fin 128, ridx_main_v20 (ix2 p q : S100000x16.Idx) k = (ix2 k q : S128x16.Idx) := fun k =>
    funext fun a => Fin.ext (by match a with | ⟨0, _⟩ => rfl | ⟨1, _⟩ => rfl)
  have eb : idx_main_v22 (idx_main_v23 (ix2 p q : S100000x16.Idx)) = (ix1 q : S16.Idx) :=
    funext fun a => Fin.ext (by match a with | ⟨0, _⟩ => rfl)
  unfold SageCombine.dividedAt
  rw [val_main_v25_apply, val_main_v24_apply, val_main_v21_apply, val_main_v19_apply, val_main_v20_apply,
    val_main_v23_apply, val_main_v22_apply, val_main_call0_v0_apply, val_main_call0_cst_apply, eb, act_true,
    Ideal.maximumf_def, Ideal.addf_def, Ideal.addf_def, Ideal.ofBits_def, Ideal.ofBits_zero_f32]
  congr 3
  · exact Finset.sum_congr rfl fun k _ => by rw [el, er]
  · exact Finset.sum_congr rfl fun k _ => by rw [el', er', mean1_apply]

/-- The reference's first layer is the quotient form of the layer, clamped at zero. -/
theorem layer1_ref : val_main_v25 (F := Ideal) x0 x1 x2 x3 x4 x5
    = SageCombine.divided (N := 100000) (K := 128) (H := 16) true x0 (val_main_v9 (F := Ideal) x0 x1 x2)
        (val_main_v13 (F := Ideal) x2) x4 x3 x5 := by
  funext i
  obtain ⟨p, q, rfl⟩ : ∃ (p : Fin 100000) (q : Fin 16), i = ix2 p q := ⟨i 0, i 1, eq_ix2 i⟩
  exact (layer1_at x0 x1 x2 x3 x4 x5 p q).trans (SageCombine.divided_apply _ _ _ _ _ _ _ p q).symm

/-! ## The second layer -/

/-- The second layer's mean at `(p, k)`: the hidden features' neighbour sum over the clamped count of row `p`. -/
theorem mean2_apply (p : Fin 100000) (k : Fin 16) :
    val_main_v44 (F := Ideal) x0 x1 x2 x3 x4 x5 (ix2 p k)
      = Ideal.div (val_main_v35 (F := Ideal) x0 x1 x2 x3 x4 x5 (ix2 p k)) (max (val_main_v39 (F := Ideal) x2 (ix1 p)) 1) := by
  have e : idx_main_v42 (idx_main_v43 (ix2 p k : S100000x16.Idx)) = (ix1 p : S100000.Idx) :=
    funext fun a => Fin.ext (by match a with | ⟨0, _⟩ => rfl)
  rw [val_main_v44_apply, val_main_v43_apply, val_main_v42_apply, val_main_v41_apply, val_main_v40_apply,
    val_main_cst_9_apply, e, Ideal.hostDivf_def, Ideal.maximumf_def, Ideal.ofBits_def, MeanScale.one_bits]

/-- The reference's second layer at `(p, q)`. -/
theorem layer2_at (p : Fin 100000) (q : Fin 40) :
    val_main_v50 (F := Ideal) x0 x1 x2 x3 x4 x5 x6 x7 x8 (ix2 p q)
      = SageCombine.dividedAt (N := 100000) (K := 16) (H := 40) false (val_main_v25 (F := Ideal) x0 x1 x2 x3 x4 x5)
          (val_main_v35 (F := Ideal) x0 x1 x2 x3 x4 x5) (val_main_v39 (F := Ideal) x2) x7 x6 x8 p q := by
  have el : ∀ k : Fin 16, lidx_main_v45 (ix2 p q : S100000x40.Idx) k = (ix2 p k : S100000x16.Idx) := fun k =>
    funext fun a => Fin.ext (by match a with | ⟨0, _⟩ => rfl | ⟨1, _⟩ => rfl)
  have er : ∀ k : Fin 16, ridx_main_v45 (ix2 p q : S100000x40.Idx) k = (ix2 k q : S16x40.Idx) := fun k =>
    funext fun a => Fin.ext (by match a with | ⟨0, _⟩ => rfl | ⟨1, _⟩ => rfl)
  have el' : ∀ k : Fin 16, lidx_main_v46 (ix2 p q : S100000x40.Idx) k = (ix2 p k : S100000x16.Idx) := fun k =>
    funext fun a => Fin.ext (by match a with | ⟨0, _⟩ => rfl | ⟨1, _⟩ => rfl)
  have er' : ∀ k : Fin 16, ridx_main_v46 (ix2 p q : S100000x40.Idx) k = (ix2 k q : S16x40.Idx) := fun k =>
    funext fun a => Fin.ext (by match a with | ⟨0, _⟩ => rfl | ⟨1, _⟩ => rfl)
  have eb : idx_main_v48 (idx_main_v49 (ix2 p q : S100000x40.Idx)) = (ix1 q : S40.Idx) :=
    funext fun a => Fin.ext (by match a with | ⟨0, _⟩ => rfl)
  unfold SageCombine.dividedAt
  rw [val_main_v50_apply, val_main_v47_apply, val_main_v45_apply, val_main_v46_apply, val_main_v49_apply,
    val_main_v48_apply, eb, act_false, Ideal.addf_def, Ideal.addf_def]
  congr 2
  · exact Finset.sum_congr rfl fun k _ => by rw [el, er]
  · exact Finset.sum_congr rfl fun k _ => by rw [el', er', mean2_apply]

/-- The reference's second layer is the quotient form of the layer over its hidden features, not clamped. -/
theorem layer2_ref : val_main_v50 (F := Ideal) x0 x1 x2 x3 x4 x5 x6 x7 x8
    = SageCombine.divided (N := 100000) (K := 16) (H := 40) false (val_main_v25 (F := Ideal) x0 x1 x2 x3 x4 x5)
        (val_main_v35 (F := Ideal) x0 x1 x2 x3 x4 x5) (val_main_v39 (F := Ideal) x2) x7 x6 x8 := by
  funext i
  obtain ⟨p, q, rfl⟩ : ∃ (p : Fin 100000) (q : Fin 40), i = ix2 p q := ⟨i 0, i 1, eq_ix2 i⟩
  exact (layer2_at x0 x1 x2 x3 x4 x5 x6 x7 x8 p q).trans (SageCombine.divided_apply _ _ _ _ _ _ _ p q).symm

end Cert.Bridge

end
-- ==== Proof.Bridge.lean ====
/-
  The kernel's function is the reference's.

  First layer: the kernel's hidden features are the product form of the layer with the stored factor `1 / max (count p) 1`,
  hence the quotient form (`SageCombine.scaled_eq_divided`), which is what the reference's first layer reads to, entry by
  entry; the neighbour sums and the count are the same host operations on both sides. Second layer: the same argument
  over the hidden features — and because the first layers are EQUAL ARRAYS, the neighbour sums of the hidden features,
  which both programs compute by the same gather and scatter, are equal too.
-/
import proofs.«103128_j69097433858679_2_alg».proof.Proof.SharedHost
import proofs.«103128_j69097433858679_2_alg».proof.Proof.RefLayers

set_option maxRecDepth 16384

noncomputable section

open Idealize.ShloMosaic Idealize.ShloMosaic.ValueIdx

namespace Cert.Bridge

open Cert.ReferenceIdeal Cert.ReferenceIdeal.Read Cert.KernelIdeal.Hand

-- the gathers and the accumulating scatters stay closed
attribute [local irreducible] Host.scatterAdd Host.gather

variable (x0 : (⟨S100000x128, .f32⟩ : BufTy).Contents (Elt Ideal)) (x1 x2 : (⟨S1600000, .i32⟩ : BufTy).Contents (Elt Ideal))
  (x3 x4 : (⟨S128x16, .f32⟩ : BufTy).Contents (Elt Ideal)) (x5 : (⟨S16, .f32⟩ : BufTy).Contents (Elt Ideal))
  (x6 x7 : (⟨S16x40, .f32⟩ : BufTy).Contents (Elt Ideal)) (x8 : (⟨S40, .f32⟩ : BufTy).Contents (Elt Ideal))

/-- The kernel's hidden features are the reference's first layer. -/
theorem hidden_ref : hiddenOf x0 x1 x2 x3 x4 x5 = val_main_v25 (F := Ideal) x0 x1 x2 x3 x4 x5 := by
  unfold hiddenOf
  refine (SageCombine.scaled_eq_divided (N := 100000) (K := 128) (H := 16) true x0 (agg1Of x0 x1 x2) (invOf x2)
    (degOf x2) x4 x3 (biasRow1 x5) x5 (inv_apply x2) (bias1_apply x5)).trans ?_
  rw [layer1_ref, agg1_eq, deg_eq]

/-- The kernel's result is the reference's. -/
theorem result_ref :
    resultOf x0 x1 x2 x3 x4 x5 x6 x7 x8 = val_main_v50 (F := Ideal) x0 x1 x2 x3 x4 x5 x6 x7 x8 := by
  unfold resultOf
  rw [hidden_ref]
  refine (SageCombine.scaled_eq_divided (N := 100000) (K := 16) (H := 40) false
    (val_main_v25 (F := Ideal) x0 x1 x2 x3 x4 x5) (agg2Of (val_main_v25 (F := Ideal) x0 x1 x2 x3 x4 x5) x1 x2) (invOf x2)
    (degOf x2) x7 x6 (biasRow2 x8) x8 (inv_apply x2) (bias2_apply x8)).trans ?_
  rw [layer2_ref, agg2_eq, deg_eq']

end Cert.Bridge

end
-- ==== Proof.lean ====
/-
  A two-layer mean-aggregating graph convolution (GraphSAGE) over 100000 nodes and 1.6 million edges: the kernel against
  its reference, over the extended reals.

  Both programs compute, per layer, `act (x · W_self + mean · W_neigh + b)`, where `mean` is the sum of the neighbours'
  rows over the neighbour count clamped below by one; the first layer clamps at zero, the second does not. The neighbour
  sums and the count are host gathers and accumulating scatters along the edge lists, the same operations in both
  programs. The kernel differs in three ways, none of which changes an extended real: the dense part of each layer is a
  tiled call over 4000-row blocks (25 tiles cover the rows; the result array is one function of what the call finds:
  Proof/Region0, Proof/Region1 over the bodies' entries Proof/Body0, Proof/Body1); the matrix operands are narrowed to
  bf16 (the identity here); and the mean is a PRODUCT with a reciprocal `1 / max count 1` computed once on the host, where
  the reference DIVIDES by `max count 1` — equal for every extended real since the clamp is never zero
  (Proof/LibMeanScale, Proof/LibSageCombine), so no input need be finite and the precondition is never opened.
  Proof/KernelRun and Proof/KernelValue follow the buffers through the kernel's four segments to the result array;
  Proof/RefLayers reads the reference entry by entry; Proof/SharedHost and Proof/Bridge join the two.
  The three frames are the generated ones (the reference's is its generated run with the result dropped); the ideal pass
  rewrote nothing, so `preserves` is `True`.
-/
import proofs.«103128_j69097433858679_2_alg».proof.Defs
import proofs.«103128_j69097433858679_2_alg».proof.Proof.Gen.Kernel
import proofs.«103128_j69097433858679_2_alg».proof.Proof.Gen.Kernel.Skeleton
import proofs.«103128_j69097433858679_2_alg».proof.Proof.Gen.Kernel.Launch
import proofs.«103128_j69097433858679_2_alg».proof.Proof.Gen.Kernel.Points
import proofs.«103128_j69097433858679_2_alg».proof.Proof.Gen.Kernel.Frame
import proofs.«103128_j69097433858679_2_alg».proof.Proof.Gen.KernelIdeal
import proofs.«103128_j69097433858679_2_alg».proof.Proof.Gen.KernelIdeal.Skeleton
import proofs.«103128_j69097433858679_2_alg».proof.Proof.Gen.KernelIdeal.Launch
import proofs.«103128_j69097433858679_2_alg».proof.Proof.Gen.KernelIdeal.Points
import proofs.«103128_j69097433858679_2_alg».proof.Proof.Gen.KernelIdeal.Frame
import proofs.«103128_j69097433858679_2_alg».proof.Proof.Gen.ReferenceIdeal
import proofs.«103128_j69097433858679_2_alg».proof.Proof.Gen.ReferenceIdeal.Run
import proofs.«103128_j69097433858679_2_alg».proof.Proof.Gen.ReferenceIdeal.Read
import proofs.«103128_j69097433858679_2_alg».proof.Proof.Gen.Pre_finite_inputs
import proofs.«103128_j69097433858679_2_alg».proof.Proof.KernelValue
import proofs.«103128_j69097433858679_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the nine arguments both programs run, and end with the same result array: the kernel's at
    `resultOf` of the arguments, the reference's at its own composed term, which is that function. -/
theorem algebraic : Cert.algebraic_KernelIdeal_ReferenceIdeal := by
  intro m ρ m' ρ' _ hagree
  refine ⟨fun c => Cert.KernelIdeal.Hand.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v50_eq, e0, e1, e2, e3, e4, e5, e6, e7, e8]
  exact (Cert.Bridge.result_ref _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
